-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S1024x256 : Shape := ⟨2, ![1024, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S131072x256 .f32) (main_arg1 : FVec F S1024x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S131072x256 : Shape := ⟨2, ![131072, 256]⟩
abbrev S1024x256 : Shape := ⟨2, ![1024, 256]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S2x8x128 : Shape := ⟨3, ![2, 8, 128]⟩
abbrev S2048x256 : Shape := ⟨2, ![2048, 256]⟩
abbrev S1x8x128 : Shape := ⟨3, ![1, 8, 128]⟩
abbrev S2048 : Shape := ⟨1, ![2048]⟩
abbrev S2048x1 : Shape := ⟨2, ![2048, 1]⟩
abbrev S256x1024 : Shape := ⟨2, ![256, 1024]⟩
abbrev S2048x1024 : Shape := ⟨2, ![2048, 1024]⟩
abbrev S1 : Shape := ⟨1, ![1]⟩
abbrev S1x1 : Shape := ⟨2, ![1, 1]⟩
abbrev S8x128 : Shape := ⟨2, ![8, 128]⟩

abbrev nBuf : Space → Nat
  | .hbm => 16
  | .vmem => 6
  | .smem => 0
  | _ => 0

abbrev bufTy : (tb : Table) → Fin (tcTables nBuf tb) → BufTy
  | .hbm, ⟨0, _⟩ => ⟨S131072x256, .f32⟩
  | .hbm, ⟨1, _⟩ => ⟨S1024x256, .f32⟩
  | .hbm, ⟨2, _⟩ => ⟨S_, .f32⟩
  | .hbm, ⟨3, _⟩ => ⟨S1024x256, .f32⟩
  | .hbm, ⟨4, _⟩ => ⟨S1024x256, .f32⟩
  | .hbm, ⟨5, _⟩ => ⟨S1024x256, .bf16⟩
  | .hbm, ⟨6, _⟩ => ⟨S1024x256, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1x1024, .f32⟩
  | .hbm, ⟨11, _⟩ => ⟨S2x8x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S1024x256, .bf16⟩
  | .local _ .vmem, ⟨3, _⟩ => ⟨S1x1024, .f32⟩
  | .local _ .vmem, ⟨4, _⟩ => ⟨S1x8x128, .f32⟩
  | .local _ .vmem, ⟨5, _⟩ => ⟨S1x8x128, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S1024x256 : S_.BroadcastsInDim S1024x256 (![] : Fin 0 → Fin S1024x256.rank)
  bitsLt_bf16_f32 : FTy.bits .bf16 < FTy.bits .f32
  reducesTo_S1024x256_S1024_d1 : S1024x256.ReducesTo [1] S1024
  h_S_ : 0 < S_.numel
  bcast_S1024_S1024x1_0 : S1024.BroadcastsInDim S1024x1 (![0] : Fin 1 → Fin S1024x1.rank)
  transposes_S1024x1_S1x1024_1_0 : S1024x1.Transposes [1, 0] S1x1024
  inb_S1x8x128_S1x8x128_0_0_0 : ∀ a, (![0, 0, 0] : Fin 3 → Nat) a + S1x8x128.size a ≤ S1x8x128.size a
  h_S1x8x128 : 0 < S1x8x128.numel
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1024x256_p1_0_S256x1024 : S1024x256.Transposes [1, 0] S256x1024
  broadcasts_S1x1024_S2048x1024 : S1x1024.Broadcasts S2048x1024
  reduces_S2048x1024_S2048 : S2048x1024.Reduces [1] S2048
  reduces_S2048x1_S1 : S2048x1.Reduces [0] S1
  shapeCasts_S1_S1x1 : S1.ShapeCasts S1x1
  shapeCasts_S1x1_S1x1 : S1x1.ShapeCasts S1x1
  broadcasts_S1x1_S8x128 : S1x1.Broadcasts S8x128
  shapeCasts_S1x8x128_S1x8x128 : S1x8x128.ShapeCasts S1x8x128
  shapeCasts_S8x128_S1x8x128 : S8x128.ShapeCasts S1x8x128
  reducesTo_S2x8x128_S_d0_1_2 : S2x8x128.ReducesTo [0, 1, 2] S_
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x256 : Shape := ⟨2, ![131072, 256]⟩
abbrev S1024x256 : Shape := ⟨2, ![1024, 256]⟩
abbrev S_ : Shape := ⟨0, ![]⟩
abbrev S131072 : Shape := ⟨1, ![131072]⟩
abbrev S131072x1 : Shape := ⟨2, ![131072, 1]⟩
abbrev S1024 : Shape := ⟨1, ![1024]⟩
abbrev S1x1024 : Shape := ⟨2, ![1, 1024]⟩
abbrev S256x1024 : Shape := ⟨2, ![256, 1024]⟩
abbrev S131072x1024 : Shape := ⟨2, ![131072, 1024]⟩

abbrev nBuf : Space → Nat
  | .hbm => 25
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S1024x256, .f32⟩
  | .hbm, ⟨2, _⟩ => ⟨S131072x256, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S1024x256, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S256x1024, .f32⟩
  | .hbm, ⟨11, _⟩ => ⟨S131072x1024, .f32⟩
  | .hbm, ⟨12, _⟩ => ⟨S131072x1024, .f32⟩
  | .hbm, ⟨13, _⟩ => ⟨S131072x1024, .f32⟩
  | .hbm, ⟨14, _⟩ => ⟨S131072x1024, .f32⟩
  | .hbm, ⟨15, _⟩ => ⟨S_, .f32⟩
  | .hbm, ⟨16, _⟩ => ⟨S131072x1024, .f32⟩
  | .hbm, ⟨17, _⟩ => ⟨S131072x1024, .f32⟩
  | .hbm, ⟨18, _⟩ => ⟨S131072x1024, .f32⟩
  | .hbm, ⟨19, _⟩ => ⟨S_, .f32⟩
  | .hbm, ⟨20, _⟩ => ⟨S131072, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  reducesTo_S1024x256_S1024_d1 : S1024x256.ReducesTo [1] S1024
  bcast_S1024_S1x1024_1 : S1024.BroadcastsInDim S1x1024 (![1] : Fin 1 → Fin S1x1024.rank)
  transposes_S1024x256_S256x1024_1_0 : S1024x256.Transposes [1, 0] S256x1024
  bcast_S131072x1_S131072x1024_0_1 : S131072x1.BroadcastsInDim S131072x1024 (![0, 1] : Fin 2 → Fin S131072x1024.rank)
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  reducesTo_S131072x1024_S131072_d1 : S131072x1024.ReducesTo [1] S131072
  reducesTo_S131072_S_d0 : S131072.ReducesTo [0] S_
  dot_S131072x256_S256x1024_S131072x1024_1_0_0_1_n_n_wf : DotDims.WF S131072x256 S256x1024 S131072x1024 [1] [0] [0] [1] [] []

variable [Facts₀]

def dot_S131072x256_S256x1024_S131072x1024_1_0_0_1_n_n : DotDims S131072x256 S256x1024 S131072x1024 where
  lhsContracting := [1]
  rhsContracting := [0]
  lhsNonContracting := [0]
  rhsNonContracting := [1]
  lhsBatch := []
  rhsBatch := []
  wf := dot_S131072x256_S256x1024_S131072x1024_1_0_0_1_n_n_wf

class Facts : Prop extends Facts₀ where

variable [Facts]
-- ==== Proof.MinDistance.lean ====
/-
  The mean least squared distance, over the reals.

  For rows x_r (r < 131072) and centroids c_k (k < 1024) in R^256 the result of both programs is

      (1 / 131072) * sum_r  min_k |x_r - c_k|^2 .

  The reference spells the squared distance as (|x|^2 + |c|^2) - 2 <x, c> and takes the least over k.
  The kernel spells it, before the least, as <x, -2 c> + |c|^2, adds |x|^2 after the least, sums 2048 rows
  at a time, spreads each such partial sum divided by 1024 over the 1024 entries of an accumulator block (one block
  per half of the rows), and at the end sums every entry of both blocks.

  This module states those two spellings as functions of real arrays, and the facts that carry a computation
  on real numbers through the extended reals: a finite sum of reals, the least of finitely many reals taken by
  min from +infinity, and a quotient by a nonzero real, are the reals one expects. It also reads the five float
  constants the programs spell.
-/
import Idealize.ShloMosaic.PureOps.Ideal.Laws
import Idealize.ShloMosaic.Lib.ValueIdx

noncomputable section

namespace Cert.MinDistance

open Idealize.ShloMosaic Idealize.ShloMosaic.ValueIdx

/-! ## Reals inside the extended reals -/

/-- A finite sum of reals, taken in the extended reals, is the real sum. -/
theorem coe_sum {ι : Type*} (s : Finset ι) (f : ι → ℝ) :
    ∑ k ∈ s, ((f k : ℝ) : EReal) = ((∑ k ∈ s, f k : ℝ) : EReal) := by
  induction s using Finset.cons_induction with
  | empty => simp
  | cons a s ha ih => rw [Finset.sum_cons, Finset.sum_cons, ih, EReal.coe_add]

/-- The least of finitely many reals (at least one), taken by min starting from +infinity in the extended reals,
    is the real least value. -/
theorem fold_min_coe {ι : Type*} (s : Finset ι) (hs : s.Nonempty) (f : ι → ℝ) :
    s.fold min (⊤ : EReal) (fun k => ((f k : ℝ) : EReal)) = ((s.inf' hs f : ℝ) : EReal) := by
  induction hs using Finset.Nonempty.cons_induction with
  | singleton a => simp
  | cons a s ha hs ih =>
    rw [Finset.fold_cons, ih, Finset.inf'_cons hs]
    exact (EReal.coe_strictMono.monotone.map_min).symm

/-- A real divided by a nonzero real, in the extended reals' division, is the real quotient. -/
theorem div_coe_coe (a b : ℝ) (hb : b ≠ 0) : Ideal.div (a : EReal) (b : EReal) = ((a / b : ℝ) : EReal) := by
  rw [Ideal.div_coe hb, ← EReal.coe_mul, mul_one_div]

/-! ## The constants the two programs spell -/

theorem ofBits_posInf : Ideal.ofBits .f32 0x7F800000#32 = (⊤ : EReal) := by
  simp [Ideal.ofBits, Ideal.ieee]

theorem ofBits_1024 : Ideal.ofBits .f32 0x44800000#32 = ((1024 : ℝ) : EReal) := by
  simp [Ideal.ofBits, Ideal.ieee, -EReal.coe_mul]; norm_num

theorem ofBits_131072 : Ideal.ofBits .f32 0x48000000#32 = ((131072 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_negTwo : Ideal.ofBits .f32 0xC0000000#32 = ((-2 : ℝ) : EReal) := by
  simp [Ideal.ofBits, Ideal.ieee, -EReal.coe_mul]; norm_num

/-! ## The two spellings, over real arrays -/

/-- The squared length of a vector of R^256. -/
def sqLen (v : Fin 256 → ℝ) : ℝ := ∑ d, v d * v d

/-- The inner product of two vectors of R^256. -/
def dotP (v w : Fin 256 → ℝ) : ℝ := ∑ d, v d * w d

/-- The least of 1024 reals. -/
def least (f : Fin 1024 → ℝ) : ℝ := Finset.univ.inf' ⟨0, Finset.mem_univ _⟩ f

/-- The reference's squared distance: (|x|^2 + |c|^2) - 2 <x, c>. -/
def distRef (v w : Fin 256 → ℝ) : ℝ := (sqLen v + sqLen w) - 2 * dotP v w

/-- The kernel's term under the least: <x, -2 c> + |c|^2 (the squared distance less |x|^2). -/
def distKer (v w : Fin 256 → ℝ) : ℝ := (∑ d, v d * (-2 * w d)) + sqLen w

/-- A row's least squared distance, the reference's way. -/
def rowRef (X : Fin 131072 → Fin 256 → ℝ) (C : Fin 1024 → Fin 256 → ℝ) (r : Fin 131072) : ℝ :=
  least fun k => distRef (X r) (C k)

/-- A row's least squared distance, the kernel's way: |x|^2 added after the least. -/
def rowKer (X : Fin 131072 → Fin 256 → ℝ) (C : Fin 1024 → Fin 256 → ℝ) (r : Fin 131072) : ℝ :=
  least (fun k => distKer (X r) (C k)) + sqLen (X r)

/-- The reference's result: the sum over all rows, divided by the number of rows. -/
def lossRef (X : Fin 131072 → Fin 256 → ℝ) (C : Fin 1024 → Fin 256 → ℝ) : ℝ :=
  (∑ r : Fin 131072, rowRef X C r) / 131072

/-- Row j of the n-th group of 2048 consecutive rows (n < 64). -/
def rowOf (n : ℕ) (hn : n < 64) (j : Fin 2048) : Fin 131072 := ⟨2048 * n + j.val, by have := j.isLt; omega⟩

/-- The kernel's partial sum over the n-th group of 2048 rows (0 past the 64 groups, which are never read). -/
def groupSum (X : Fin 131072 → Fin 256 → ℝ) (C : Fin 1024 → Fin 256 → ℝ) (n : ℕ) : ℝ :=
  if hn : n < 64 then ∑ j : Fin 2048, rowKer X C (rowOf n hn j) else 0

/-- What each entry of the accumulator block of half h (h < 2) ends with: the 32 partial sums of that half, each
    divided by 1024. -/
def accEntry (X : Fin 131072 → Fin 256 → ℝ) (C : Fin 1024 → Fin 256 → ℝ) (h : ℕ) : ℝ :=
  ∑ s ∈ Finset.range 32, groupSum X C (32 * h + s) / 1024

/-- The kernel's result: every entry of both accumulator blocks summed, divided by the number of rows. -/
def lossKer (X : Fin 131072 → Fin 256 → ℝ) (C : Fin 1024 → Fin 256 → ℝ) : ℝ :=
  (∑ i : (⟨3, ![2, 8, 128]⟩ : Shape).Idx, accEntry X C (i 0).val) / 131072

end Cert.MinDistance

end
-- ==== Proof.FiniteInputs.lean ====
/-
  What the precondition says: every entry of both inputs is a real number.

  The precondition is the conjunction of two tests, one per input: that every entry's absolute value is below
  +infinity. On the extended reals the absolute value of either infinity is +infinity, so an entry that passes
  is neither: it is a real.
-/
import proofs.«145010_j1829656068283_2_alg».proof.Proof.Gen.Pre_finite_inputs
import proofs.«145010_j1829656068283_2_alg».proof.Proof.MinDistance
import Idealize.ShloMosaic.Lib.ReduceAll

noncomputable section

namespace Cert.Pre_finite_inputs.Finite

open Idealize.ShloMosaic Idealize.ShloMosaic.ValueIdx Cert.Pre_finite_inputs

/-- The scalar shape has one index. -/
instance : Subsingleton S_.Idx := ⟨fun a b => funext fun d => d.elim0⟩

/-- An extended real whose absolute value max(x, -x) is below +infinity is a real. -/
theorem real_of_abs_lt_top (x : EReal) (h : max x (-x) < (⊤ : EReal)) : ∃ r : ℝ, x = (r : EReal) := by
  induction x using EReal.rec with
  | bot => exact absurd h (by simp)
  | top => exact absurd h (by simp)
  | coe r => exact ⟨r, rfl⟩

/-- The comparison the precondition makes of one entry, read back. -/
theorem real_of_cmp (x : EReal) (h : Ideal.cmp .olt (max x (-x)) (Ideal.ofBits .f32 0x7F800000#32) = 1#1) :
    ∃ r : ℝ, x = (r : EReal) := by
  rw [Cert.MinDistance.ofBits_posInf] at h
  refine real_of_abs_lt_top x ?_
  by_contra hn
  simp [Ideal.cmp, hn] at h

variable [Cert.Pre_finite_inputs.Facts]

/-- Under the precondition every entry of the rows and of the centroids is a real. -/
theorem entries_real (x0 : FVec Ideal S131072x256 .f32) (x1 : FVec Ideal S1024x256 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ix0
  dsimp only [Cert.Pre_finite_inputs.fn] at h0
  obtain ⟨ha, hb⟩ := IntOp.andi_eq_one.1 h0
  refine ⟨fun i => ?_, fun i => ?_⟩
  · have e := Host.reduce_andi_all _ _ _ _ _ ha i
    exact real_of_cmp (x0 i) e
  · have e := Host.reduce_andi_all _ _ _ _ _ hb i
    exact real_of_cmp (x1 i) e

end Cert.Pre_finite_inputs.Finite

end
-- ==== Proof.MinDistanceAlgebra.lean ====
/-
  The two spellings of the mean least squared distance are one real number.

  Four steps, all on real numbers:
  * <x, -2 c> + |c|^2 + |x|^2 = (|x|^2 + |c|^2) - 2 <x, c>   (distributivity);
  * adding a number commutes with taking the least, so the row's squared length may be added after the least;
  * each accumulator block has 1024 equal entries, each the block's 32 partial sums over 1024, so summing a block's
    entries gives back the 32 partial sums;
  * the 64 groups of 2048 consecutive rows are all 131072 rows.
-/
import proofs.«145010_j1829656068283_2_alg».proof.Proof.MinDistance

noncomputable section

namespace Cert.MinDistance

open Idealize.ShloMosaic Idealize.ShloMosaic.ValueIdx

/-- The kernel's term plus the row's squared length is the reference's squared distance. -/
theorem distKer_add_sq (v w : Fin 256 → ℝ) : distKer v w + sqLen v = distRef v w := by
  have h : (∑ d, v d * (-2 * w d)) = -2 * ∑ d, v d * w d := by
    rw [Finset.mul_sum]; exact Finset.sum_congr rfl fun d _ => by ring
  unfold distKer distRef dotP
  rw [h]; ring

/-- Adding a number to each of the 1024 candidates adds it to their least. -/
theorem least_add (f : Fin 1024 → ℝ) (a : ℝ) : least f + a = least fun k => f k + a := by
  unfold least
  apply le_antisymm
  · refine Finset.le_inf' _ _ fun k _ => ?_
    have h := Finset.inf'_le f (Finset.mem_univ k)
    linarith
  · obtain ⟨k, _, hk⟩ := Finset.exists_mem_eq_inf' (⟨0, Finset.mem_univ _⟩ : (Finset.univ : Finset (Fin 1024)).Nonempty) f
    rw [hk]
    exact Finset.inf'_le (fun k => f k + a) (Finset.mem_univ k)

/-- So a row's value is the same either way. -/
theorem rowKer_eq_rowRef (X : Fin 131072 → Fin 256 → ℝ) (C : Fin 1024 → Fin 256 → ℝ) (r : Fin 131072) :
    rowKer X C r = rowRef X C r := by
  unfold rowKer rowRef
  rw [least_add]
  exact congrArg least (funext fun k => distKer_add_sq (X r) (C k))

/-- An accumulator array's index set is the product of its three coordinate ranges. -/
def blockIdxEquiv : (⟨3, ![2, 8, 128]⟩ : Shape).Idx ≃ Fin 2 × Fin 8 × Fin 128 where
  toFun i := (i 0, i 1, i 2)
  invFun p := ix3 p.1 p.2.1 p.2.2
  left_inv i := (eq_ix3 i).symm
  right_inv _ := rfl

/-- Summing over both blocks a quantity that depends on the block only: 1024 copies of each block's value. -/
theorem sum_blocks (g : ℕ → ℝ) : ∑ i : (⟨3, ![2, 8, 128]⟩ : Shape).Idx, g (i 0).val = 1024 * (g 0 + g 1) := by
  rw [← Equiv.sum_comp blockIdxEquiv.symm]
  have e : ∀ p : Fin 2 × Fin 8 × Fin 128, g ((blockIdxEquiv.symm p) 0).val = g p.1.val := fun _ => rfl
  simp only [e, Fintype.sum_prod_type, Finset.sum_const, Finset.card_univ, Fintype.card_fin, nsmul_eq_mul, Fin.sum_univ_two]
  norm_num
  ring

/-- The 64 groups of 2048 consecutive rows, taken in order, are all the rows. -/
def groupEquiv : Fin 64 × Fin 2048 ≃ Fin 131072 :=
  (finProdFinEquiv (m := 64) (n := 2048)).trans (finCongr (by norm_num))

theorem groupEquiv_apply (t : Fin 64) (j : Fin 2048) : groupEquiv (t, j) = rowOf t.val t.isLt j :=
  Fin.ext (by simp [groupEquiv, rowOf, finProdFinEquiv]; ring)

/-- The sum of all 64 partial sums is the sum over all rows. -/
theorem sum_groupSum (X : Fin 131072 → Fin 256 → ℝ) (C : Fin 1024 → Fin 256 → ℝ) :
    ∑ n ∈ Finset.range 64, groupSum X C n = ∑ r : Fin 131072, rowKer X C r := by
  rw [Finset.sum_range, ← Equiv.sum_comp groupEquiv, Fintype.sum_prod_type]
  refine Finset.sum_congr rfl fun t _ => ?_
  unfold groupSum
  rw [dif_pos t.isLt]
  exact Finset.sum_congr rfl fun j _ => by rw [groupEquiv_apply]

/-- The kernel's result is the reference's. -/
theorem lossKer_eq_lossRef (X : Fin 131072 → Fin 256 → ℝ) (C : Fin 1024 → Fin 256 → ℝ) : lossKer X C = lossRef X C := by
  unfold lossKer lossRef
  rw [sum_blocks (accEntry X C)]
  unfold accEntry
  rw [← Finset.sum_div, ← Finset.sum_div, ← add_div, Nat.mul_zero, Nat.mul_one]
  have h64 : ∑ n ∈ Finset.range 64, groupSum X C n
      = ∑ s ∈ Finset.range 32, groupSum X C (0 + s) + ∑ s ∈ Finset.range 32, groupSum X C (32 + s) := by
    rw [show (64 : ℕ) = 32 + 32 from rfl, Finset.sum_range_add]
    simp only [Nat.zero_add]
  rw [← h64, sum_groupSum, mul_div_cancel₀ _ (by norm_num : (1024 : ℝ) ≠ 0)]
  exact congrArg (· / 131072) (Finset.sum_congr rfl fun r _ => rowKer_eq_rowRef X C r)

end Cert.MinDistance

end
-- ==== Proof.ReferenceValue.lean ====
/-
  The reference's result read at the ideal instance, on real inputs: the mean over the rows r of the least, over the
  centroids k, of  (sum_d x[r,d]^2 + sum_d c[k,d]^2) - 2 * sum_d x[r,d] * c[k,d].

  The generated stage-by-stage reading of the reference gives every stage at an index except the least over k,
  which is read here as a fold of min over the 1024 centroids. On inputs whose entries are reals each stage is
  a real, and the last one is the reference's spelling of the mean least squared distance.
-/
import proofs.«145010_j1829656068283_2_alg».proof.Proof.Gen.ReferenceIdeal.Read
import proofs.«145010_j1829656068283_2_alg».proof.Proof.MinDistance

noncomputable section

namespace Cert.ReferenceIdeal.RefValue

open Idealize.ShloMosaic Idealize.ShloMosaic.ValueIdx
open Cert.ReferenceIdeal Cert.ReferenceIdeal.Gen Cert.ReferenceIdeal.Read Cert.MinDistance

variable (X : Fin 131072 → Fin 256 → ℝ) (C : Fin 1024 → Fin 256 → ℝ)
variable (x0 : FVec Ideal S131072x256 .f32) (x1 : FVec Ideal S1024x256 .f32)

/-- A row's squared length. -/
theorem rowSq (hx : ∀ r d, x0 (ix2 r d) = ((X r d : ℝ) : EReal)) (r : Fin 131072) :
    val_main_v1 (F := Ideal) x0 (ix1 r) = ((sqLen (X r) : ℝ) : EReal) := by
  rw [val_main_v1_apply]
  have e : ∀ k : Fin 256, idx_main_v1 (ix1 r) k = ix2 r k :=
    fun k => funext fun a => Fin.ext (by match a with | ⟨0, _⟩ => rfl | ⟨1, _⟩ => rfl)
  simp only [val_main_v0_apply, val_main_cst_apply, e, hx, Ideal.mulf_def, Ideal.ofBits_def, Ideal.ofBits_zero_f32, zero_add,
    ← EReal.coe_mul]
  exact coe_sum _ _

/-- A centroid's squared length. -/
theorem cenSq (hc : ∀ k d, x1 (ix2 k d) = ((C k d : ℝ) : EReal)) (k : Fin 1024) :
    val_main_v4 (F := Ideal) x1 (ix1 k) = ((sqLen (C k) : ℝ) : EReal) := by
  rw [val_main_v4_apply]
  have e : ∀ d : Fin 256, idx_main_v4 (ix1 k) d = ix2 k d :=
    fun d => funext fun a => Fin.ext (by match a with | ⟨0, _⟩ => rfl | ⟨1, _⟩ => rfl)
  simp only [val_main_v3_apply, val_main_cst_0_apply, e, hc, Ideal.mulf_def, Ideal.ofBits_def, Ideal.ofBits_zero_f32, zero_add,
    ← EReal.coe_mul]
  exact coe_sum _ _

/-- The inner product of row r with centroid k. -/
theorem rowCen (hx : ∀ r d, x0 (ix2 r d) = ((X r d : ℝ) : EReal)) (hc : ∀ k d, x1 (ix2 k d) = ((C k d : ℝ) : EReal))
    (r : Fin 131072) (k : Fin 1024) :
    val_main_v7 (F := Ideal) x0 x1 (ix2 r k) = ((dotP (X r) (C k) : ℝ) : EReal) := by
  rw [val_main_v7_apply]
  have el : ∀ d : Fin 256, lidx_main_v7 (ix2 r k) d = ix2 r d :=
    fun d => funext fun a => Fin.ext (by match a with | ⟨0, _⟩ => rfl | ⟨1, _⟩ => rfl)
  have er : ∀ d : Fin 256, idx_main_v6 (ridx_main_v7 (ix2 r k) d) = ix2 k d :=
    fun d => funext fun a => Fin.ext (by match a with | ⟨0, _⟩ => rfl | ⟨1, _⟩ => rfl)
  simp only [val_main_v6_apply, el, er, hx, hc, ← EReal.coe_mul]
  exact coe_sum _ _

/-- The squared distance from row r to centroid k, the reference's way. -/
theorem dist (hx : ∀ r d, x0 (ix2 r d) = ((X r d : ℝ) : EReal)) (hc : ∀ k d, x1 (ix2 k d) = ((C k d : ℝ) : EReal))
    (r : Fin 131072) (k : Fin 1024) :
    val_main_v13 (F := Ideal) x0 x1 (ix2 r k) = ((distRef (X r) (C k) : ℝ) : EReal) := by
  have e8 : idx_main_v2 (idx_main_v8 (ix2 r k)) = ix1 r := funext fun a => Fin.ext (by match a with | ⟨0, _⟩ => rfl)
  have e9 : idx_main_v5 (idx_main_v9 (ix2 r k)) = ix1 k := funext fun a => Fin.ext (by match a with | ⟨0, _⟩ => rfl)
  rw [val_main_v13_apply, val_main_v10_apply, val_main_v12_apply, val_main_v8_apply, val_main_v2_apply, val_main_v9_apply,
    val_main_v5_apply, val_main_v11_apply, val_main_cst_1_apply, e8, e9, rowSq X x0 hx, cenSq C x1 hc, rowCen X C x0 x1 hx hc]
  simp only [Ideal.subf_def, Ideal.addf_def, Ideal.mulf_def, Ideal.ofBits_def, ofBits_two, ← EReal.coe_mul, ← EReal.coe_add,
    ← EReal.coe_sub]
  rfl

/-- A row's least squared distance: the host's reduction by min over the centroids, from +infinity. -/
theorem rowLeast (hx : ∀ r d, x0 (ix2 r d) = ((X r d : ℝ) : EReal)) (hc : ∀ k d, x1 (ix2 k d) = ((C k d : ℝ) : EReal))
    (r : Fin 131072) :
    val_main_v14 (F := Ideal) x0 x1 (ix1 r) = ((rowRef X C r : ℝ) : EReal) := by
  unfold val_main_v14
  refine (Host.reduce_eq_fold_single FloatOps.minimumf _ _ reducesTo_S131072x1024_S131072_d1
    (by decide : S131072x1024.Reduces [1] S131072) h_S_ (ix1 r)).trans ?_
  have hf : (val_main_v13 (F := Ideal) x0 x1 ∘ (by decide : S131072x1024.Reduces [1] S131072).lift (ix1 r))
      = fun k : Fin 1024 => ((distRef (X r) (C k) : ℝ) : EReal) := funext fun k => by
    have e : (by decide : S131072x1024.Reduces [1] S131072).lift (ix1 r) k = ix2 r ⟨k.val, k.isLt⟩ :=
      funext fun a => Fin.ext (by match a with | ⟨0, _⟩ => rfl | ⟨1, _⟩ => rfl)
    exact (congrArg (val_main_v13 (F := Ideal) x0 x1) e).trans (dist X C x0 x1 hx hc r _)
  rw [hf]
  show Finset.fold min (Ideal.ofBits .f32 0x7F800000#32) _ _ = _
  rw [ofBits_posInf]
  exact fold_min_coe (Finset.univ : Finset (Fin 1024)) ⟨(0 : Fin 1024), Finset.mem_univ _⟩ (fun k => distRef (X r) (C k))

/-- A vector's index set is its one coordinate's range. -/
def rowIdxEquiv : S131072.Idx ≃ Fin 131072 where
  toFun i := i 0
  invFun r := ix1 r
  left_inv i := (eq_ix1 i).symm
  right_inv _ := rfl

/-- The reference's result on real inputs. -/
theorem value (hx : ∀ r d, x0 (ix2 r d) = ((X r d : ℝ) : EReal)) (hc : ∀ k d, x1 (ix2 k d) = ((C k d : ℝ) : EReal))
    (i : S_.Idx) :
    val_main_v16 (F := Ideal) x0 x1 i = ((lossRef X C : ℝ) : EReal) := by
  rw [val_main_v16_apply, val_main_v15_apply, val_main_cst_3_apply, val_main_cst_4_apply,
    ← Equiv.sum_comp rowIdxEquiv.symm]
  have hs : ∀ r : Fin 131072, val_main_v14 (F := Ideal) x0 x1 (rowIdxEquiv.symm r) = ((rowRef X C r : ℝ) : EReal) :=
    fun r => rowLeast X C x0 x1 hx hc r
  simp only [hs, Ideal.hostDivf_def, Ideal.ofBits_def, Ideal.ofBits_zero_f32, zero_add, ofBits_131072, coe_sum]
  exact div_coe_coe _ _ (by norm_num)

end Cert.ReferenceIdeal.RefValue

end
-- ==== Proof.CaseValues.lean ====
/-
  What the kernel body leaves in the accumulator block, case by case, at any float instance.

  At the first of a half's 32 grid points the body first stores the zero block, reads it back, and stores the
  body's value computed over that zero block. At every other point it reads what the point before left and stores
  the body's value computed over that. In both cases the one store that remains covers the whole block, so the block
  ends holding exactly that value.
-/
import proofs.«145010_j1829656068283_2_alg».proof.Proof.Gen.KernelIdeal.Frame
import Idealize.ShloMosaic.Lib.Pipeline.Value
import Idealize.ShloMosaic.Lib.Tactic

noncomputable section

namespace Cert.KernelIdeal.Cases

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a point that is not the first of its half: the body's value over the blocks and over what the block held. -/
theorem out_B (c : Dev nD) (i : grid0.Coords) (a2 : Memref sig .tc .vmem S2048x256 .f32) (h2 : a2.IsWhole) (a3 : Memref sig .tc .vmem S1024x256 .bf16) (h3 : a3.IsWhole) (a4 : Memref sig .tc .vmem S1x1024 .f32) (h4 : a4.IsWhole) (a5 : Memref sig .tc .vmem S1x8x128 .f32) (h5 : a5.IsWhole) (hc : ¬cond0_0 i)
    (x0 : Vec F S2048x256 .f32) (x1 : Vec F S1024x256 .bf16) (x2 : Vec F S1x1024 .f32) (xo : Vec F S1x8x128 .f32) :
    out0_B_3 c i a2 h2 a3 h3 a4 h4 a5 h5 hc x0 x1 x2 xo = k0_pay2 x0 x1 x2 xo := by
  unfold out0_B_3
  rw [View.read_writes_eq_canon _ _ _ (cover0_B_3 c i a2 h2 a3 h3 a4 h4 a5 h5 hc x0 x1 x2 xo)]
  unfold kernelRun0_B
  dsimp only
  rw [View.canon_unit_zero hz3]
  simp only [View.readAt_eq_ld, h2.read_unread, h3.read_unread, h4.read_unread, h5.read_unread,
    View.ld_unit_zero (S := S2048x256) hz2, View.ld_unit_zero (S := S1024x256) hz2, View.ld_unit_zero (S := S1x1024) hz2,
    View.ld_unit_zero (S := S1x8x128) hz3]

/-- At the first point of a half: the body's value over the blocks and over the zero block it has just stored. -/
theorem out_A (c : Dev nD) (i : grid0.Coords) (a2 : Memref sig .tc .vmem S2048x256 .f32) (h2 : a2.IsWhole) (a3 : Memref sig .tc .vmem S1024x256 .bf16) (h3 : a3.IsWhole) (a4 : Memref sig .tc .vmem S1x1024 .f32) (h4 : a4.IsWhole) (a5 : Memref sig .tc .vmem S1x8x128 .f32) (h5 : a5.IsWhole) (hc : cond0_0 i)
    (x0 : Vec F S2048x256 .f32) (x1 : Vec F S1024x256 .bf16) (x2 : Vec F S1x1024 .f32) :
    out0_A_3 c i a2 h2 a3 h3 a4 h4 a5 h5 hc x0 x1 x2 = k0_pay2 x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread,
    View.ld_unit_zero (S := S2048x256) hz2, View.ld_unit_zero (S := S1024x256) hz2, View.ld_unit_zero (S := S1x1024) hz2]

end Cert.KernelIdeal.Cases

end
-- ==== Proof.TileValue.lean ====
/-
  What one run of the kernel body adds to the accumulator block, read at the ideal instance.

  At a grid point the body holds a block x of 2048 rows of the input (2048 x 256), the scaled centroids
  s = -2 c (1024 x 256) and the centroids' squared lengths q (1 x 1024). For each row r it forms, for every
  centroid k, the inner product <x_r, s_k> plus q_k, takes the least over k starting from +infinity, and adds
  the row's own squared length. It sums these 2048 numbers, divides by 1024, and adds the quotient to every one of
  the 1024 entries of the accumulator block.

  Each intermediate value is given a name here, read at an index, and the body's stored value is shown to be
  their composition.
-/
import proofs.«145010_j1829656068283_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Idealize.ShloMosaic Idealize.ShloMosaic.TcCoe Idealize.ShloMosaic.ValueIdx
open Cert.KernelIdeal Cert.KernelIdeal.Gen

/-! ## The contraction of the block product: its operand indices, coordinate by coordinate -/

theorem lhs_0 (i : S2048x1024.Idx) (q : dot_S2048x256_S256x1024_S2048x1024_1_0_0_1_n_n.contr.Idx) :
    (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl
theorem lhs_1 (i : S2048x1024.Idx) (q : dot_S2048x256_S256x1024_S2048x1024_1_0_0_1_n_n.contr.Idx) :
    (dot_S2048x256_S256x1024_S2048x1024_1_0_0_1_n_n.lhsIdx i q 1).val = (q ⟨0, by decide⟩).val :=
  dot_S2048x256_S256x1024_S2048x1024_1_0_0_1_n_n.lhsIdx_val_of_single rfl i q
theorem rhs_0 (i : S2048x1024.Idx) (q : dot_S2048x256_S256x1024_S2048x1024_1_0_0_1_n_n.contr.Idx) :
    (dot_S2048x256_S256x1024_S2048x1024_1_0_0_1_n_n.rhsIdx i q 0).val = (q ⟨0, by decide⟩).val :=
  dot_S2048x256_S256x1024_S2048x1024_1_0_0_1_n_n.rhsIdx_val_of_single rfl i q
theorem rhs_1 (i : S2048x1024.Idx) (q : dot_S2048x256_S256x1024_S2048x1024_1_0_0_1_n_n.contr.Idx) :
    (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl

/-! ## The named intermediate values -/

/-- Each row's squared length: the sum over the 256 lanes of the squares. -/
def sqRows (x : FVec Ideal S2048x256 .f32) : FVec Ideal S2048 .f32 :=
  multiReduction .add [1] S2048 (mulf x x) 0x00000000#32 reduces_S2048x256_S2048 (.inl rfl) rfl

/-- The block product of the rows with the scaled centroids, into a zero accumulator. -/
def prodRows (x : FVec Ideal S2048x256 .f32) (s : FVec Ideal S1024x256 .bf16) : FVec Ideal S2048x1024 .f32 :=
  matmul dot_S2048x256_S256x1024_S2048x1024_1_0_0_1_n_n none (truncf .bf16 x bitsLt_bf16_f32)
    (transpose S256x1024 [1, 0] (shapeCast S1024x256 s shapeCasts_S1024x256_S1024x256) transposes_S1024x256_p1_0_S256x1024)
    (constant S2048x1024 .f32 0x00000000#32)

/-- Each row's least, over the centroids, of the product plus the centroid's squared length. -/
def minRows (x : FVec Ideal S2048x256 .f32) (s : FVec Ideal S1024x256 .bf16) (q : FVec Ideal S1x1024 .f32) : FVec Ideal S2048 .f32 :=
  multiReduction .minimumf [1] S2048
    (addf (prodRows x s) (broadcastTo S2048x1024 (shapeCast S1x1024 q shapeCasts_S1x1024_S1x1024) broadcasts_S1x1024_S2048x1024))
    0x7F800000#32 reduces_S2048x1024_S2048 (.inl rfl) rfl

/-- Each row's least squared distance: the least above plus the row's squared length, as a column. -/
def totRows (x : FVec Ideal S2048x256 .f32) (s : FVec Ideal S1024x256 .bf16) (q : FVec Ideal S1x1024 .f32) : FVec Ideal S2048x1 .f32 :=
  addf (shapeCast S2048x1 (minRows x s q) shapeCasts_S2048_S2048x1) (shapeCast S2048x1 (sqRows x) shapeCasts_S2048_S2048x1)

/-- The sum of the 2048 rows' values. -/
def tileTot (x : FVec Ideal S2048x256 .f32) (s : FVec Ideal S1024x256 .bf16) (q : FVec Ideal S1x1024 .f32) : FVec Ideal S1 .f32 :=
  multiReduction .add [0] S1 (totRows x s q) 0x00000000#32 reduces_S2048x1_S1 (.inl rfl) rfl

/-- That sum divided by 1024 and copied to every entry of an accumulator block. -/
def spread (x : FVec Ideal S2048x256 .f32) (s : FVec Ideal S1024x256 .bf16) (q : FVec Ideal S1x1024 .f32) : FVec Ideal S1x8x128 .f32 :=
  shapeCast S1x8x128
    (broadcastTo S8x128
      (shapeCast S1x1 (divf (shapeCast S1x1 (tileTot x s q) shapeCasts_S1_S1x1) (broadcast S1x1 (Scalar.ofBits .f32 0x44800000#32)))
        shapeCasts_S1x1_S1x1)
      broadcasts_S1x1_S8x128)
    shapeCasts_S8x128_S1x8x128

/-- The value the body stores is the block it loaded plus the spread quotient. -/
theorem pay2_eq (x : Vec Ideal S2048x256 .f32) (s : Vec Ideal S1024x256 .bf16) (q : Vec Ideal S1x1024 .f32) (o : Vec Ideal S1x8x128 .f32) :
    k0_pay2 (F := Ideal) x s q o = addf (shapeCast S1x8x128 o shapeCasts_S1x8x128_S1x8x128) (spread x s q) := rfl

end Cert.KernelIdeal.Tile

end
-- ==== Proof.TileSq.lean ====
/-
  A row's squared length, read at an index; and a vector cast to a column.
-/
import proofs.«145010_j1829656068283_2_alg».proof.Proof.TileValue
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Idealize.ShloMosaic Idealize.ShloMosaic.TcCoe Idealize.ShloMosaic.ValueIdx
open Cert.KernelIdeal Cert.KernelIdeal.Gen

/-- A vector of 2048 entries cast to a column reads, at row r, entry r. -/
theorem column_apply {α : Type} (v : S2048.Idx → α) (h : S2048.ShapeCasts S2048x1) (r : Fin 2048) (u : Fin 1) :
    shapeCast S2048x1 v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- A row's squared length is the sum over the lanes d of x[r,d] * x[r,d]. -/
theorem sqRows_apply (x : FVec Ideal S2048x256 .f32) (r : Fin 2048) :
    sqRows x (ix1 r) = ∑ d : Fin 256, x (ix2 r d) * x (ix2 r d) := by
  unfold sqRows
  refine (Ideal.multiReduction_add_single (mulf x x) _ reduces_S2048x256_S2048 _ _ (ix1 r)).trans ?_
  refine Finset.sum_congr rfl fun d _ => ?_
  have e : reduces_S2048x256_S2048.lift (ix1 r) d = ix2 r ⟨d.val, d.isLt⟩ :=
    funext fun a => Fin.ext (by match a with | ⟨0, _⟩ => rfl | ⟨1, _⟩ => rfl)
  exact congrArg (fun i => x i * x i) e

end Cert.KernelIdeal.Tile

end
-- ==== Proof.TileProd.lean ====
/-
  The block product of the rows with the scaled centroids, read at an index.
-/
import proofs.«145010_j1829656068283_2_alg».proof.Proof.TileValue
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Idealize.ShloMosaic Idealize.ShloMosaic.TcCoe Idealize.ShloMosaic.ValueIdx
open Cert.KernelIdeal Cert.KernelIdeal.Gen

/-- The block product at (r, k) is the sum over d of x[r,d] * s[k,d]: the second operand enters transposed. -/
theorem prodRows_apply (x : FVec Ideal S2048x256 .f32) (s : FVec Ideal S1024x256 .bf16) (r : Fin 2048) (k : Fin 1024) :
    prodRows x s (ix2 r k) = ∑ d : Fin 256, x (ix2 r d) * s (ix2 k d) := by
  unfold prodRows
  refine (Ideal.matmul_constant_zero_apply dot_S2048x256_S256x1024_S2048x1024_1_0_0_1_n_n none _ _ (ix2 r k)).trans ?_
  rw [← Equiv.sum_comp (ValueIdx.contrEquiv1 dot_S2048x256_S256x1024_S2048x1024_1_0_0_1_n_n 256 rfl rfl).symm]
  refine Finset.sum_congr rfl fun d _ => ?_
  have hk := ValueIdx.contrEquiv1_symm_val dot_S2048x256_S256x1024_S2048x1024_1_0_0_1_n_n 256 rfl rfl d
  have el : dot_S2048x256_S256x1024_S2048x1024_1_0_0_1_n_n.lhsIdx (ix2 r k) ((ValueIdx.contrEquiv1 dot_S2048x256_S256x1024_S2048x1024_1_0_0_1_n_n 256 rfl rfl).symm d) = ix2 r d :=
    funext fun a => Fin.ext (by
      match a with
      | ⟨0, _⟩ => exact lhs_0 _ _
      | ⟨1, _⟩ => exact (lhs_1 _ _).trans hk)
  have er : dot_S2048x256_S256x1024_S2048x1024_1_0_0_1_n_n.rhsIdx (ix2 r k) ((ValueIdx.contrEquiv1 dot_S2048x256_S256x1024_S2048x1024_1_0_0_1_n_n 256 rfl rfl).symm d) = ix2 d k :=
    funext fun a => Fin.ext (by
      match a with
      | ⟨0, _⟩ => exact (rhs_0 _ _).trans hk
      | ⟨1, _⟩ => exact rhs_1 _ _)
  rw [el, er, transpose_ix2_apply, shapeCast_self]
  rfl

end Cert.KernelIdeal.Tile

end
-- ==== Proof.LibMinimumSingle.lean ====
/-
  A float minimum-reduction over ONE axis, read at the ideal instance.
-/
import Idealize.ShloMosaic.PureOps.Ideal.Laws

namespace Idealize.ShloMosaic.Ideal

variable {φ : FTy}

/-- A float `vector.multi_reduction <minimumf>` over one axis, read at the ideal instance: at each reduced index, the fold
    of `min` from the accumulator's value over that axis's coordinates (the reduced index with the coordinate
    inserted on the dropped axis). The counterpart, for the minimum, of the library's reading of a maximum over one axis;
    stated for any shapes, axis and float format. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.TileMin.lean ====
/-
  A row's least over the centroids, read at an index.
-/
import proofs.«145010_j1829656068283_2_alg».proof.Proof.TileProd
import proofs.«145010_j1829656068283_2_alg».proof.Proof.LibMinimumSingle
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Idealize.ShloMosaic Idealize.ShloMosaic.TcCoe Idealize.ShloMosaic.ValueIdx
open Cert.KernelIdeal Cert.KernelIdeal.Gen

/-- A row's least over the centroids k of (product at (r, k)) + q[k], taken by min from the seed. -/
theorem minRows_apply (x : FVec Ideal S2048x256 .f32) (s : FVec Ideal S1024x256 .bf16) (q : FVec Ideal S1x1024 .f32) (r : Fin 2048) :
    minRows x s q (ix1 r) = (Finset.univ : Finset (Fin 1024)).fold min (Ideal.ofBits .f32 0x7F800000#32)
      (fun k => (∑ d : Fin 256, x (ix2 r d) * s (ix2 k d)) + q (ix2 (0 : Fin 1) k)) := by
  unfold minRows
  have hf : (fun k : Fin 1024 => (addf (prodRows x s) (broadcastTo S2048x1024 (shapeCast S1x1024 q shapeCasts_S1x1024_S1x1024)
        broadcasts_S1x1024_S2048x1024)) (reduces_S2048x1024_S2048.lift (ix1 r) k))
      = fun k : Fin 1024 => (∑ d : Fin 256, x (ix2 r d) * s (ix2 k d)) + q (ix2 (0 : Fin 1) k) := funext fun k => by
    have e : reduces_S2048x1024_S2048.lift (ix1 r) k = ix2 r k :=
      funext fun a => Fin.ext (by match a with | ⟨0, _⟩ => rfl | ⟨1, _⟩ => rfl)
    refine (congrArg (addf (prodRows x s) (broadcastTo S2048x1024 (shapeCast S1x1024 q shapeCasts_S1x1024_S1x1024) broadcasts_S1x1024_S2048x1024)) e).trans ?_
    show prodRows x s (ix2 r k) + broadcastTo S2048x1024 (shapeCast S1x1024 q shapeCasts_S1x1024_S1x1024) broadcasts_S1x1024_S2048x1024 (ix2 r k) = _
    rw [prodRows_apply, broadcastTo_1b_ab_apply, shapeCast_self]
  refine (Ideal.multiReduction_minimumf_single _ _ reduces_S2048x1024_S2048 _ _ (ix1 r)).trans ?_
  exact congrArg (fun f : Fin 1024 → EReal => Finset.fold min (Ideal.ofBits .f32 0x7F800000#32) f (Finset.univ : Finset (Fin 1024))) hf

end Cert.KernelIdeal.Tile

end
-- ==== Proof.TileSum.lean ====
/-
  The tile's total, its spread over the accumulator block, and the value the body stores, read at an index.
-/
import proofs.«145010_j1829656068283_2_alg».proof.Proof.TileSq
import proofs.«145010_j1829656068283_2_alg».proof.Proof.TileMin
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Idealize.ShloMosaic Idealize.ShloMosaic.TcCoe Idealize.ShloMosaic.ValueIdx
open Cert.KernelIdeal Cert.KernelIdeal.Gen

/-- A row's value: its least plus its squared length. -/
theorem totRows_apply (x : FVec Ideal S2048x256 .f32) (s : FVec Ideal S1024x256 .bf16) (q : FVec Ideal S1x1024 .f32) (r : Fin 2048) (u : Fin 1) :
    totRows x s q (ix2 r u) = minRows x s q (ix1 r) + sqRows x (ix1 r) := by
  unfold totRows
  rw [addf_apply, column_apply, column_apply]

/-- The tile's total: the sum of the 2048 rows' values. -/
theorem tileTot_apply (x : FVec Ideal S2048x256 .f32) (s : FVec Ideal S1024x256 .bf16) (q : FVec Ideal S1x1024 .f32) (u : Fin 1) :
    tileTot x s q (ix1 u) = ∑ r : Fin 2048, (minRows x s q (ix1 r) + sqRows x (ix1 r)) := by
  unfold tileTot
  refine (Ideal.multiReduction_add_single (totRows x s q) _ reduces_S2048x1_S1 _ _ (ix1 u)).trans ?_
  refine Finset.sum_congr rfl fun r _ => ?_
  have e : reduces_S2048x1_S1.lift (ix1 u) r = ix2 ⟨r.val, r.isLt⟩ u :=
    funext fun a => Fin.ext (by match a with | ⟨0, _⟩ => rfl | ⟨1, _⟩ => rfl)
  exact (congrArg (totRows x s q) e).trans (totRows_apply x s q _ u)

/-- Every entry of the spread block is the tile's total divided by the constant 1024. -/
theorem spread_apply (x : FVec Ideal S2048x256 .f32) (s : FVec Ideal S1024x256 .bf16) (q : FVec Ideal S1x1024 .f32)
    (u : Fin 1) (a : Fin 8) (l : Fin 128) :
    spread x s q (ix3 u a l) = Ideal.div (tileTot x s q (ix1 (0 : Fin 1))) (Ideal.ofBits .f32 0x44800000#32) := by
  unfold spread
  rw [shapeCast_ab_1ab_apply]
  refine (broadcastTo_apply _ broadcasts_S1x1_S8x128 (ix2 a l) (ix2 (0 : Fin 1) (0 : Fin 1))
    (fun ax => by match ax with | ⟨0, _⟩ => rfl | ⟨1, _⟩ => rfl)).trans ?_
  rw [shapeCast_self]
  show Ideal.div (shapeCast S1x1 (tileTot x s q) shapeCasts_S1_S1x1 (ix2 (0 : Fin 1) (0 : Fin 1))) _ = _
  rw [shapeCast_a_1a_apply]
  rfl

/-- One row's contribution, written out over the loaded blocks. -/
def rowTerm (x : FVec Ideal S2048x256 .f32) (s : FVec Ideal S1024x256 .bf16) (q : FVec Ideal S1x1024 .f32) (r : Fin 2048) : EReal :=
  (Finset.univ : Finset (Fin 1024)).fold min (Ideal.ofBits .f32 0x7F800000#32)
      (fun k => (∑ d : Fin 256, x (ix2 r d) * s (ix2 k d)) + q (ix2 (0 : Fin 1) k))
    + ∑ d : Fin 256, x (ix2 r d) * x (ix2 r d)

/-- The stored value at entry (u, a, l): the loaded entry plus the sum of the rows' contributions over 1024. -/
theorem pay2_apply (x : Vec Ideal S2048x256 .f32) (s : Vec Ideal S1024x256 .bf16) (q : Vec Ideal S1x1024 .f32) (o : Vec Ideal S1x8x128 .f32)
    (u : Fin 1) (a : Fin 8) (l : Fin 128) :
    k0_pay2 (F := Ideal) x s q o (ix3 u a l)
      = o (ix3 u a l) + Ideal.div (∑ r : Fin 2048, rowTerm x s q r) (Ideal.ofBits .f32 0x44800000#32) := by
  rw [pay2_eq]
  show shapeCast S1x8x128 o shapeCasts_S1x8x128_S1x8x128 (ix3 u a l) + spread x s q (ix3 u a l) = _
  rw [shapeCast_self, spread_apply, tileTot_apply]
  refine congrArg (fun z => o (ix3 u a l) + Ideal.div z (Ideal.ofBits .f32 0x44800000#32)) (Finset.sum_congr rfl fun r _ => ?_)
  rw [minRows_apply, sqRows_apply]
  rfl

/-- The value the reset stores is zero at every entry. -/
theorem pay1_apply (i : S1x8x128.Idx) : k0_pay1 (F := Ideal) i = Ideal.ofBits .f32 0x00000000#32 := rfl

end Cert.KernelIdeal.Tile

end
-- ==== Proof.Accumulate.lean ====
/-
  What the accumulator block holds after each grid point, at the ideal instance.

  The 64 grid points go half by half: points 32 h, ..., 32 h + 31 work on half h of the rows. At the first point of a
  half the block is reset to zero and the point's addend is added; at each later point the point's addend is added to
  what the point before left. A point's addend is the same at every entry of the block: the sum of its 2048 rows'
  values, divided by 1024. So after point t every entry holds  0 + sum of the addends of points 32 (t / 32), ..., t.
-/
import proofs.«145010_j1829656068283_2_alg».proof.Proof.Gen.KernelIdeal.Frame
import proofs.«145010_j1829656068283_2_alg».proof.Proof.CaseValues
import proofs.«145010_j1829656068283_2_alg».proof.Proof.TileSum
import Idealize.ShloMosaic.Lib.Pipeline.Value

noncomputable section

namespace Cert.KernelIdeal.Acc

open Idealize.ShloMosaic Idealize.ShloMosaic.TcCoe Idealize.ShloMosaic.ValueIdx Idealize.SL.Sem
open Cert.KernelIdeal Cert.KernelIdeal.Gen Cert.KernelIdeal.Tile

variable (m : (ℓ : Loc nD τ sig) → Buf (Elt Ideal) ℓ)

/-- The block of 2048 rows of the input that point n works on. -/
def blkX (c : Dev nD) (n : ℕ) (h : n < cfg0.N) : Vec Ideal S2048x256 .f32 := iblk m c 0 ⟨n, h⟩
/-- The scaled centroids as point n finds them (the same at every point). -/
def blkS (c : Dev nD) (n : ℕ) (h : n < cfg0.N) : Vec Ideal S1024x256 .bf16 := iblk m c 1 ⟨n, h⟩
/-- The centroids' squared lengths as point n finds them (the same at every point). -/
def blkQ (c : Dev nD) (n : ℕ) (h : n < cfg0.N) : Vec Ideal S1x1024 .f32 := iblk m c 2 ⟨n, h⟩

/-- Point n's addend: the sum of its rows' values over 1024 (0 past the grid, where it is never read). -/
def addend (c : Dev nD) (n : ℕ) : EReal :=
  if h : n < cfg0.N then
    Ideal.div (∑ r : Fin 2048, rowTerm (blkX m c n h) (blkS m c n h) (blkQ m c n h) r) (Ideal.ofBits .f32 0x44800000#32)
  else 0

/-- What the first point of a half leaves: the body's value over the zero block. -/
def resetVal (c : Dev nD) (n : ℕ) (h : n < cfg0.N) : Vec Ideal S1x8x128 .f32 :=
  k0_pay2 (blkX m c n h) (blkS m c n h) (blkQ m c n h) (k0_pay1 (F := Ideal))

/-- What a later point leaves, from what the point before left. -/
def stepVal (c : Dev nD) (n : ℕ) (h : n < cfg0.N) (acc : Vec Ideal S1x8x128 .f32) : Vec Ideal S1x8x128 .f32 :=
  k0_pay2 (blkX m c n h) (blkS m c n h) (blkQ m c n h) acc

theorem outs_reset (c : Dev nD) (n : ℕ) (h : n < cfg0.N) (h0 : n % 32 = 0) : outsAt0 m c n h = resetVal m c n h :=
  (outsAt0_A m c ⟨n, h⟩ h0).trans
    (Cases.out_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      (ms0_3 ⟨n, h⟩) (hs0_3 ⟨n, h⟩) ((hcond0_0 ⟨n, h⟩).mpr h0) (iblk m c 0 ⟨n, h⟩) (iblk m c 1 ⟨n, h⟩) (iblk m c 2 ⟨n, h⟩))

theorem outs_step (c : Dev nD) (n : ℕ) (h : n + 1 < cfg0.N) (hne : ¬(n + 1) % 32 = 0) :
    outsAt0 m c (n + 1) h = stepVal m c (n + 1) h (outsAt0 m c n (Nat.lt_of_succ_lt h)) :=
  (outsAt0_B m c ⟨n + 1, h⟩ hne).trans
    (Cases.out_B c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (fun hh => hne ((hcond0_0 ⟨n + 1, h⟩).mp hh))
      (iblk m c 0 ⟨n + 1, h⟩) (iblk m c 1 ⟨n + 1, h⟩) (iblk m c 2 ⟨n + 1, h⟩) (outsAt0 m c n (Nat.lt_of_succ_lt h)))

/-- The reset value at an entry: zero plus the point's addend. -/
theorem resetVal_apply (c : Dev nD) (n : ℕ) (h : n < cfg0.N) (i : S1x8x128.Idx) :
    resetVal m c n h i = Ideal.ofBits .f32 0x00000000#32 + addend m c n := by
  obtain ⟨u, a, l, rfl⟩ : ∃ (u : Fin 1) (a : Fin 8) (l : Fin 128), i = ix3 u a l := ⟨i 0, i 1, i 2, eq_ix3 i⟩
  unfold resetVal addend
  rw [dif_pos h]
  exact pay2_apply (blkX m c n h) (blkS m c n h) (blkQ m c n h) (k0_pay1 (F := Ideal)) u a l

/-- A step's value at an entry: what was there plus the point's addend. -/
theorem stepVal_apply (c : Dev nD) (n : ℕ) (h : n < cfg0.N) (acc : Vec Ideal S1x8x128 .f32) (i : S1x8x128.Idx) :
    stepVal m c n h acc i = acc i + addend m c n := by
  obtain ⟨u, a, l, rfl⟩ : ∃ (u : Fin 1) (a : Fin 8) (l : Fin 128), i = ix3 u a l := ⟨i 0, i 1, i 2, eq_ix3 i⟩
  unfold stepVal addend
  rw [dif_pos h]
  exact pay2_apply (blkX m c n h) (blkS m c n h) (blkQ m c n h) acc u a l

/-- After point t every entry of the block holds zero plus the addends of its half's points up to t. -/
theorem outs_eq (c : Dev nD) (t : ℕ) (ht : t < cfg0.N) (i : S1x8x128.Idx) :
    outsAt0 m c t ht i
      = Ideal.ofBits .f32 0x00000000#32 + ∑ s ∈ Finset.range (t % 32 + 1), addend m c (32 * (t / 32) + s) := by
  have h' : 32 * (t / 32) + t % 32 < cfg0.N := by rw [Nat.div_add_mod]; exact ht
  rw [Pipeline.eq_accAt_of_mod (fun n h => outsAt0 m c n h) 32 (resetVal m c) (stepVal m c) (outs_reset m c) (outs_step m c)
    (by decide) t ht h']
  exact Pipeline.accAt_add_apply (resetVal m c) (stepVal m c) (fun _ => Ideal.ofBits .f32 0x00000000#32) (fun n _ => addend m c n)
    (32 * (t / 32)) (t % 32) (fun h i => resetVal_apply m c _ h i) (fun n h acc i _ _ => stepVal_apply m c n h acc i)
    (t % 32) le_rfl h' i

end Cert.KernelIdeal.Acc

end
-- ==== Proof.FinalArray.lean ====
/-
  The accumulator array after the kernel has run, at the ideal instance.

  The array has two blocks of 8 x 128 entries, one per half of the rows. Block h is written back once, after the
  last point of its half (point 32 h + 31), when every entry of it holds zero plus that half's 32 addends. The two
  blocks are the whole array, so the array ends holding, at entry (h, a, l), zero plus the addends of points
  32 h, ..., 32 h + 31.
-/
import proofs.«145010_j1829656068283_2_alg».proof.Proof.Accumulate
import Idealize.ShloMosaic.Lib.Pipeline.Value

noncomputable section

namespace Cert.KernelIdeal.Acc

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Tile

variable (m : (ℓ : Loc nD τ sig) → Buf (Elt Ideal) ℓ)

/-- What the accumulator array ends holding: at entry (h, a, l), zero plus the 32 addends of half h. -/
def accArray (c : Dev nD) : Buf (Elt Ideal) ((c : Thread nD τ).loc main_v7) :=
  fun (i : S2x8x128.Idx) => Ideal.ofBits .f32 0x00000000#32 + ∑ s ∈ Finset.range 32, addend m c (32 * (i 0).val + s)

/-- The accumulator's window is at block (t / 32, 0, 0) at point t. -/
theorem idxO : ∀ t : Fin cfg0.N, win0_3.index t (0 : Fin 3) = t.val / 32 ∧ win0_3.index t (1 : Fin 3) = 0 ∧ win0_3.index t (2 : Fin 3) = 0 :=
  (by decide +kernel : ∀ t : Fin grid0.N, win0_3.index t (0 : Fin 3) = t.val / 32 ∧ win0_3.index t (1 : Fin 3) = 0 ∧ win0_3.index t (2 : Fin 3) = 0)

/-- What a flushing point writes back is its block of that array. -/
theorem flushed_eq (c : Dev nD) (t : Fin cfg0.N) (hf : (cfg0.win 3).flush t = true) :
    (dats m 0 c).flushed 3 t = ((cfg0.win 3).blk t).view.read (Elt Ideal) (accArray m c) := by
  show (cfg0.win 3).cut (grid0.coords t) ((dats m 0 c).after 3 t) = _
  rw [after0_3]
  funext j
  show outsAt0 m c t.val t.isLt j = accArray m c (((cfg0.win 3).blk t).view.emb j)
  have hmod : t.val % 32 = 31 := (flush0_3 t).mp hf
  have e0 : ((((cfg0.win 3).blk t).view.emb j) 0).val = t.val / 32 := by
    show win0_3.index t 0 * 1 + 1 * (j 0).val = t.val / 32
    have hj : (j 0).val < 1 := (j 0).isLt
    rw [(idxO t).1]; omega
  rw [outs_eq, hmod]
  unfold accArray
  rw [e0]

/-- An index of the array is in point t's block iff each coordinate is in the block's range on its axis. -/
theorem mem_blk (t : Fin cfg0.N) (i : S2x8x128.Idx) :
    i ∈ ((cfg0.win 3).blk t).view.set ↔ ∀ a : Fin 3, win0_3.index t a * S1x8x128.size a ≤ (i a).val
      ∧ (i a).val < win0_3.index t a * S1x8x128.size a + S1x8x128.size a := by
  show i ∈ ((View.whole main_v7).slice (win0_3.rect t)).set ↔ _
  rw [View.set_slice_whole, Rect.mem_set_unit]
  exact Iff.rfl

/-- Every entry of the array is in the block of its half's last point. -/
theorem covered (i : S2x8x128.Idx) :
    ∃ t : Fin cfg0.N, (cfg0.win 3).flush t = true ∧ i ∈ ((cfg0.win 3).blk t).view.set := by
  have hN : cfg0.N = 64 := N_0
  have hi0 : (i 0).val < 2 := (i 0).isLt
  have hi1 : (i 1).val < 8 := (i 1).isLt
  have hi2 : (i 2).val < 128 := (i 2).isLt
  have ht : 32 * (i 0).val + 31 < cfg0.N := by rw [hN]; omega
  refine ⟨⟨32 * (i 0).val + 31, ht⟩, (flush0_3 _).mpr (by show (32 * (i 0).val + 31) % 32 = 31; omega), ?_⟩
  rw [mem_blk]
  obtain ⟨q0, q1, q2⟩ := idxO ⟨32 * (i 0).val + 31, ht⟩
  intro a
  match a with
  | ⟨0, _⟩ =>
    show win0_3.index ⟨32 * (i 0).val + 31, ht⟩ 0 * 1 ≤ (i 0).val ∧ (i 0).val < win0_3.index ⟨32 * (i 0).val + 31, ht⟩ 0 * 1 + 1
    rw [q0]; show (32 * (i 0).val + 31) / 32 * 1 ≤ (i 0).val ∧ (i 0).val < (32 * (i 0).val + 31) / 32 * 1 + 1; omega
  | ⟨1, _⟩ =>
    show win0_3.index ⟨32 * (i 0).val + 31, ht⟩ 1 * 8 ≤ (i 1).val ∧ (i 1).val < win0_3.index ⟨32 * (i 0).val + 31, ht⟩ 1 * 8 + 8
    rw [q1]; omega
  | ⟨2, _⟩ =>
    show win0_3.index ⟨32 * (i 0).val + 31, ht⟩ 2 * 128 ≤ (i 2).val ∧ (i 2).val < win0_3.index ⟨32 * (i 0).val + 31, ht⟩ 2 * 128 + 128
    rw [q2]; omega

/-- The accumulator array after the run. -/
theorem final (c : Dev nD) : (dats m 0 c).arrAt 3 cfg0.N = accArray m c :=
  (dats m 0 c).arrAt_eq_of_cover 3 (accArray m c) (flushed_eq m c) (covered)

end Cert.KernelIdeal.Acc

end
-- ==== Proof.Blocks.lean ====
/-
  The three input blocks a grid point finds, as functions of the argument arrays, at the ideal instance.

  * The rows: point n (n < 64) reads rows 2048 n, ..., 2048 n + 2047 of the input.
  * The scaled centroids: at every point the whole array  -2 * c[k,d], which the host computes before the kernel runs
    (the change of float format that follows is the identity at the ideal instance).
  * The centroids' squared lengths: at every point the whole row  0 + sum_d c[k,d] * c[k,d], also computed by the host
    before the kernel, as a column and then transposed.
-/
import proofs.«145010_j1829656068283_2_alg».proof.Proof.Accumulate
import Idealize.ShloMosaic.Lib.StableHlo.Run
import Idealize.ShloMosaic.Lib.ValueLayout

noncomputable section

namespace Cert.KernelIdeal.Acc

open Idealize.ShloMosaic Idealize.ShloMosaic.TcCoe Idealize.ShloMosaic.ValueIdx Idealize.SL.Sem Idealize.ShloMosaic.Tactic
open Idealize.ShloMosaic.StableHlo
open Cert.KernelIdeal Cert.KernelIdeal.Gen Cert.KernelIdeal.Tile

variable (m : (ℓ : Loc nD τ sig) → Buf (Elt Ideal) ℓ)

/-- The rows as the device holds them at launch. -/
abbrev rows (c : Dev nD) : S131072x256.Idx → EReal := m ((c : Thread nD τ).loc main_arg0)
/-- The centroids as the device holds them at launch. -/
abbrev cens (c : Dev nD) : S1024x256.Idx → EReal := m ((c : Thread nD τ).loc main_arg1)

/-! ## The windows' block indices, decided over the grid -/

/-- The rows' window is at block (t, 0) at point t. -/
theorem idxX : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The scaled centroids' window is at block (0, 0) at every point. -/
theorem idxS : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- The squared lengths' window is at block (0, 0) at every point. -/
theorem idxQ : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-! ## What the host leaves in the two arrays it computes before the kernel -/

/-- The scaled centroids: -2 times the centroids, entry by entry. -/
theorem V_scaled (c : Dev nD) : (V m c main_v2 : S1024x256.Idx → EReal)
    = truncf .bf16 (mulf (broadcastInDim S1024x256 ![] bcast_S_S1024x256 (constant (F := Ideal) S_ .f32 0xC0000000#32))
        (m ((c : Thread nD τ).loc main_arg1))) bitsLt_bf16_f32 := by
  show StableHlo.after hostOps0 (fun b => m (c, b)) (Proc.devRef .tc main_v2) = _
  after_results

/-- The squared lengths: each centroid's sum of squares, as a column, transposed to a row. -/
theorem V_sqLen (c : Dev nD) : (V m c main_v6 : S1x1024.Idx → EReal)
    = transpose S1x1024 [1, 0] (broadcastInDim S1024x1 ![0] bcast_S1024_S1024x1_0
        (Host.reduceAdd (F := Ideal) (mulf (m ((c : Thread nD τ).loc main_arg1)) (m ((c : Thread nD τ).loc main_arg1)))
          (constant (F := Ideal) S_ .f32 0x00000000#32) reducesTo_S1024x256_S1024_d1 h_S_))
        transposes_S1024x1_S1x1024_1_0 := by
  show StableHlo.after hostOps0 (fun b => m (c, b)) (Proc.devRef .tc main_v6) = _
  after_results

/-! ## The blocks read at an index -/

/-- Row r of point n's block of the input is row 2048 n + r of the input. -/
theorem blkX_apply (c : Dev nD) (n : ℕ) (h : n < cfg0.N) (r : Fin 2048) (d : Fin 256) (R : Fin 131072) (hR : R.val = 2048 * n + r.val) :
    blkX m c n h (ix2 r d) = rows m c (ix2 R d) := by
  unfold blkX iblk
  rw [View.read_apply]
  show V m c main_arg0 (((cfg0.win 0).blk ⟨n, h⟩).view.emb (ix2 r d)) = _
  rw [V_main_arg0]
  refine congrArg (m ((c : Thread nD τ).loc main_arg0)) (funext fun a => Fin.ext ?_)
  match a with
  | ⟨0, _⟩ =>
    show win0_0.index ⟨n, h⟩ 0 * 2048 + 1 * r.val = R.val
    rw [(idxX ⟨n, h⟩).1, hR]; show n * 2048 + 1 * r.val = 2048 * n + r.val; omega
  | ⟨1, _⟩ =>
    show win0_0.index ⟨n, h⟩ 1 * 256 + 1 * d.val = d.val
    rw [(idxX ⟨n, h⟩).2]; omega

/-- Entry (k, d) of the scaled centroids: the constant -2 times c[k,d]. -/
theorem blkS_apply (c : Dev nD) (n : ℕ) (h : n < cfg0.N) (k : Fin 1024) (d : Fin 256) :
    blkS m c n h (ix2 k d) = Ideal.ofBits .f32 0xC0000000#32 * cens m c (ix2 k d) := by
  unfold blkS iblk
  rw [View.read_apply]
  show V m c main_v2 (((cfg0.win 1).blk ⟨n, h⟩).view.emb (ix2 k d)) = _
  have e : ((cfg0.win 1).blk ⟨n, h⟩).view.emb (ix2 k d) = ix2 k d := funext fun a => Fin.ext (by
    match a with
    | ⟨0, _⟩ => show win0_1.index ⟨n, h⟩ 0 * 1024 + 1 * k.val = k.val; rw [(idxS ⟨n, h⟩).1]; omega
    | ⟨1, _⟩ => show win0_1.index ⟨n, h⟩ 1 * 256 + 1 * d.val = d.val; rw [(idxS ⟨n, h⟩).2]; omega)
  rw [e, V_scaled]
  rfl

/-- Entry (0, k) of the squared lengths: zero plus the sum over d of c[k,d] * c[k,d]. -/
theorem blkQ_apply (c : Dev nD) (n : ℕ) (h : n < cfg0.N) (u : Fin 1) (k : Fin 1024) :
    blkQ m c n h (ix2 u k) = Ideal.ofBits .f32 0x00000000#32
      + ∑ d : Fin 256, cens m c (ix2 k d) * cens m c (ix2 k d) := by
  unfold blkQ iblk
  rw [View.read_apply]
  show V m c main_v6 (((cfg0.win 2).blk ⟨n, h⟩).view.emb (ix2 u k)) = _
  have e : ((cfg0.win 2).blk ⟨n, h⟩).view.emb (ix2 u k) = ix2 u k := funext fun a => Fin.ext (by
    match a with
    | ⟨0, _⟩ => show win0_2.index ⟨n, h⟩ 0 * 1 + 1 * u.val = u.val; rw [(idxQ ⟨n, h⟩).1]; omega
    | ⟨1, _⟩ => show win0_2.index ⟨n, h⟩ 1 * 1024 + 1 * k.val = k.val; rw [(idxQ ⟨n, h⟩).2]; omega)
  rw [e, V_sqLen, transpose_ix2_apply]
  refine (broadcastInDim_apply _ bcast_S1024_S1024x1_0 _ (ix2 k u) (ix1 k) (fun a => match a with
    | ⟨0, _⟩ => by show k.val = if (1024 : Nat) = 1 then 0 else k.val; rw [if_neg (by decide)])).trans ?_
  simp only [Host.reduceAdd, Ideal.hostReduceAdd_def]
  rw [Ideal.hostReduceAdd_single reducesTo_S1024x256_S1024_d1 (by decide)]
  refine congrArg (_ + ·) (Finset.sum_congr rfl fun d _ => ?_)
  have e : (by decide : S1024x256.Reduces [1] S1024).lift (ix1 k) d = ix2 k ⟨d.val, d.isLt⟩ :=
    funext fun a => Fin.ext (by match a with | ⟨0, _⟩ => rfl | ⟨1, _⟩ => rfl)
  exact congrArg (fun i => cens m c i * cens m c i) e

end Cert.KernelIdeal.Acc

end
-- ==== Proof.RealBlocks.lean ====
/-
  On real inputs, what the accumulator block holds is a real number, and it is the kernel's spelling of the
  partial sums.

  With every entry of the rows and of the centroids a real, a row's value in the kernel body is the real
  (least over k of (<x, -2 c_k> + |c_k|^2)) + |x|^2, a point's addend is the real sum of its 2048 rows' values
  over 1024, and after the last point of a half every entry of the block holds the sum of that half's 32 addends.
-/
import proofs.«145010_j1829656068283_2_alg».proof.Proof.Blocks
import proofs.«145010_j1829656068283_2_alg».proof.Proof.MinDistance

noncomputable section

namespace Cert.KernelIdeal.Acc

open Idealize.ShloMosaic Idealize.ShloMosaic.TcCoe Idealize.ShloMosaic.ValueIdx Idealize.SL.Sem
open Cert.KernelIdeal Cert.KernelIdeal.Gen Cert.KernelIdeal.Tile Cert.MinDistance

variable (m : (ℓ : Loc nD τ sig) → Buf (Elt Ideal) ℓ)
variable (X : Fin 131072 → Fin 256 → ℝ) (C : Fin 1024 → Fin 256 → ℝ)

/-- A row's value in the body, on real inputs. -/
theorem rowTerm_real (c : Dev nD)
    (hx : ∀ R d, rows m c (ix2 R d) = ((X R d : ℝ) : EReal))
    (hc : ∀ k d, cens m c (ix2 k d) = ((C k d : ℝ) : EReal))
    (n : ℕ) (h : n < cfg0.N) (hn : n < 64) (r : Fin 2048) :
    rowTerm (blkX m c n h) (blkS m c n h) (blkQ m c n h) r = ((rowKer X C (rowOf n hn r) : ℝ) : EReal) := by
  have hX : ∀ d : Fin 256, blkX m c n h (ix2 r d) = ((X (rowOf n hn r) d : ℝ) : EReal) :=
    fun d => (blkX_apply m c n h r d (rowOf n hn r) rfl).trans (hx _ d)
  have hS : ∀ (k : Fin 1024) (d : Fin 256), blkS m c n h (ix2 k d) = ((-2 * C k d : ℝ) : EReal) := fun k d => by
    rw [blkS_apply, hc, ofBits_negTwo, ← EReal.coe_mul]
  have hQ : ∀ k : Fin 1024, blkQ m c n h (ix2 (0 : Fin 1) k) = ((sqLen (C k) : ℝ) : EReal) := fun k => by
    rw [blkQ_apply]
    simp only [hc, Ideal.ofBits_zero_f32, zero_add, ← EReal.coe_mul, coe_sum]
    rfl
  unfold rowTerm
  simp only [hX, hS, hQ, ← EReal.coe_mul, coe_sum, ← EReal.coe_add]
  rw [ofBits_posInf, fold_min_coe (Finset.univ : Finset (Fin 1024)) ⟨(0 : Fin 1024), Finset.mem_univ _⟩, ← EReal.coe_add]
  rfl

/-- A point's addend, on real inputs. -/
theorem addend_real (c : Dev nD)
    (hx : ∀ R d, rows m c (ix2 R d) = ((X R d : ℝ) : EReal))
    (hc : ∀ k d, cens m c (ix2 k d) = ((C k d : ℝ) : EReal)) (n : ℕ) :
    addend m c n = ((groupSum X C n / 1024 : ℝ) : EReal) := by
  have hN : cfg0.N = 64 := N_0
  unfold addend groupSum
  by_cases hn : n < 64
  · have h : n < cfg0.N := by rw [hN]; exact hn
    rw [dif_pos h, dif_pos hn]
    simp only [rowTerm_real m X C c hx hc n h hn, coe_sum, ofBits_1024]
    exact div_coe_coe _ _ (by norm_num)
  · have h : ¬n < cfg0.N := by rw [hN]; exact hn
    rw [dif_neg h, dif_neg hn]
    simp

/-- After point t every entry of the block holds the real sum of its half's addends up to t. -/
theorem outs_real (c : Dev nD)
    (hx : ∀ R d, rows m c (ix2 R d) = ((X R d : ℝ) : EReal))
    (hc : ∀ k d, cens m c (ix2 k d) = ((C k d : ℝ) : EReal))
    (t : ℕ) (ht : t < cfg0.N) (i : S1x8x128.Idx) :
    outsAt0 m c t ht i = ((∑ s ∈ Finset.range (t % 32 + 1), groupSum X C (32 * (t / 32) + s) / 1024 : ℝ) : EReal) := by
  rw [outs_eq]
  simp only [addend_real m X C c hx hc, coe_sum, Ideal.ofBits_zero_f32, zero_add]

end Cert.KernelIdeal.Acc

end
-- ==== Proof.KernelValue.lean ====
/-
  The kernel program's result, at the ideal instance.

  After the kernel has run the host sums every entry of the accumulator array, from zero, and divides by 131072.
  On real inputs each entry of block h is the real sum of half h's 32 addends, so the result is the kernel's spelling
  of the mean least squared distance.
-/
import proofs.«145010_j1829656068283_2_alg».proof.Proof.FinalArray
import proofs.«145010_j1829656068283_2_alg».proof.Proof.RealBlocks
import Idealize.ShloMosaic.Lib.StableHlo.Run

noncomputable section

namespace Cert.KernelIdeal.Acc

open Idealize.ShloMosaic Idealize.ShloMosaic.TcCoe Idealize.ShloMosaic.ValueIdx Idealize.SL.Sem Idealize.ShloMosaic.Tactic
open Idealize.ShloMosaic.StableHlo
open Cert.KernelIdeal Cert.KernelIdeal.Gen Cert.KernelIdeal.Tile Cert.MinDistance

variable (m : (ℓ : Loc nD τ sig) → Buf (Elt Ideal) ℓ) (ρ : Dev nD → PrngReg)

/-- The program's result: the sum of the accumulator array's entries, from zero, over 131072. -/
def result (c : Dev nD) : Buf (Elt Ideal) ((c : Thread nD τ).loc main_v9) :=
  Host.divf (F := Ideal)
    (Host.reduceAdd (F := Ideal) (accArray m c) (constant (F := Ideal) S_ .f32 0x00000000#32) reducesTo_S2x8x128_S_d0_1_2 h_S_)
    (constant (F := Ideal) S_ .f32 0x48000000#32)

/-- What the host operations after the kernel leave in the result buffer. -/
theorem tail_eq (c : Dev nD) : Pipeline.afterTail₀ cfgs (dats m) 0 (V0 m) [hostOps1] c main_v9 = result m c := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v7)
      = accArray m c := (Pipeline.withArrays_arr spec0 launch0.win.arr_inj c _ _ 3).trans (final m c)
  rw [hw]
  rfl

/-- The run, read: the result buffer at `result`, both arguments unchanged. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

/-- The result at its one index: the host's quotient of the host's sum. -/
theorem result_apply (c : Dev nD) (i : S_.Idx) :
    result m c i = FloatOps.hostDivf
      (Host.reduceAdd (F := Ideal) (accArray m c) (constant (F := Ideal) S_ .f32 0x00000000#32) reducesTo_S2x8x128_S_d0_1_2 h_S_ i)
      (Ideal.ofBits .f32 0x48000000#32) := rfl

variable (X : Fin 131072 → Fin 256 → ℝ) (C : Fin 1024 → Fin 256 → ℝ)

/-- On real inputs an entry of block h of the accumulator array is the real sum of half h's addends. -/
theorem accArray_real (c : Dev nD)
    (hx : ∀ R d, rows m c (ix2 R d) = ((X R d : ℝ) : EReal))
    (hc : ∀ k d, cens m c (ix2 k d) = ((C k d : ℝ) : EReal)) (j : S2x8x128.Idx) :
    accArray m c j = ((accEntry X C (j 0).val : ℝ) : EReal) := by
  unfold accArray accEntry
  simp only [addend_real m X C c hx hc, coe_sum, Ideal.ofBits_zero_f32, zero_add]

/-- On real inputs the program's result is the kernel's spelling of the mean least squared distance. -/
theorem result_real (c : Dev nD)
    (hx : ∀ R d, rows m c (ix2 R d) = ((X R d : ℝ) : EReal))
    (hc : ∀ k d, cens m c (ix2 k d) = ((C k d : ℝ) : EReal)) (i : S_.Idx) :
    result m c i = ((lossKer X C : ℝ) : EReal) := by
  rw [result_apply]
  generalize hy : accArray m c = y
  have hyv : ∀ j : S2x8x128.Idx, y j = ((accEntry X C (j 0).val : ℝ) : EReal) :=
    fun j => by rw [← hy]; exact accArray_real m X C c hx hc j
  simp only [Host.reduceAdd, Ideal.hostReduceAdd_def]
  rw [Ideal.hostReduceAdd_total reducesTo_S2x8x128_S_d0_1_2 (fun b => b.elim0)]
  simp only [hyv, constant, Ideal.ofBits_def, Ideal.ofBits_zero_f32, zero_add, coe_sum, Ideal.hostDivf_def, ofBits_131072]
  exact div_coe_coe _ _ (by norm_num)

end Cert.KernelIdeal.Acc

end
-- ==== Proof.lean ====
/-
  The mean least squared distance from 131072 rows to 1024 centroids in R^256: a tiled kernel against a plain
  reference, at the ideal instance, on finite inputs.

  Both programs compute  (1 / 131072) * sum_r min_k |x_r - c_k|^2.  The reference expands the square as
  (|x|^2 + |c|^2) - 2 <x, c> and takes the least over k. The kernel takes the least over k of <x, -2 c_k> + |c_k|^2
  and adds |x|^2 afterwards, sums 2048 rows at a time, accumulates each such partial sum divided by 1024 into every
  entry of one 8 x 128 block per half of the rows, and finally sums all 2048 entries of the two blocks.

  On the extended reals these agree where every entry of the inputs is a real, which the precondition says:
  distributing -2 over the inner product, moving |x|^2 across the least, and cancelling the division by 1024 against
  the 1024 equal entries all need finite values. So the proof reads both results as real numbers (the kernel's
  through what its accumulator holds point by point, the reference's stage by stage) and joins them by an identity
  between reals.

  The three frames: the two kernel programs run to the end with their arguments unchanged, by their generated frame
  proofs; the reference does, by its generated run. The idealization rewrote nothing, so there is nothing to preserve.
-/
import proofs.«145010_j1829656068283_2_alg».proof.Defs
import proofs.«145010_j1829656068283_2_alg».proof.Proof.Gen.Kernel
import proofs.«145010_j1829656068283_2_alg».proof.Proof.Gen.Kernel.Skeleton
import proofs.«145010_j1829656068283_2_alg».proof.Proof.Gen.Kernel.Launch
import proofs.«145010_j1829656068283_2_alg».proof.Proof.Gen.Kernel.Points
import proofs.«145010_j1829656068283_2_alg».proof.Proof.Gen.Kernel.Frame
import proofs.«145010_j1829656068283_2_alg».proof.Proof.Gen.KernelIdeal
import proofs.«145010_j1829656068283_2_alg».proof.Proof.Gen.KernelIdeal.Skeleton
import proofs.«145010_j1829656068283_2_alg».proof.Proof.Gen.KernelIdeal.Launch
import proofs.«145010_j1829656068283_2_alg».proof.Proof.Gen.KernelIdeal.Points
import proofs.«145010_j1829656068283_2_alg».proof.Proof.Gen.KernelIdeal.Frame
import proofs.«145010_j1829656068283_2_alg».proof.Proof.Gen.ReferenceIdeal
import proofs.«145010_j1829656068283_2_alg».proof.Proof.Gen.ReferenceIdeal.Run
import proofs.«145010_j1829656068283_2_alg».proof.Proof.Gen.ReferenceIdeal.Read
import proofs.«145010_j1829656068283_2_alg».proof.Proof.Gen.Pre_finite_inputs
import proofs.«145010_j1829656068283_2_alg».proof.Proof.FiniteInputs
import proofs.«145010_j1829656068283_2_alg».proof.Proof.MinDistanceAlgebra
import proofs.«145010_j1829656068283_2_alg».proof.Proof.ReferenceValue
import proofs.«145010_j1829656068283_2_alg».proof.Proof.KernelValue
import Idealize.ShloMosaic.Adequacy
import Idealize.ShloMosaic.Init

noncomputable section

namespace Cert.Proof

open Idealize.ShloMosaic Idealize.SL.Sem Idealize.ShloMosaic.ValueIdx

/-- The kernel program as printed runs to the end, nothing faulting, its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs that agree, the two idealized programs end with the same extended real: the kernel's result is the
    real `lossKer`, the reference's the real `lossRef`, of the inputs' entries read as reals, and those are one number. -/
theorem algebraic : Cert.algebraic_KernelIdeal_ReferenceIdeal := by
  intro m ρ m' ρ' hpre hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Acc.result m c
  rw [Cert.ReferenceIdeal.Read.val_main_v16_eq, (hagree c).1, (hagree c).2]
  obtain ⟨h0, h1⟩ := Cert.Pre_finite_inputs.Finite.entries_real _ _ (hpre c)
  choose X0 hX0 using h0
  choose C0 hC0 using h1
  funext i
  rw [Cert.ReferenceIdeal.RefValue.value (fun r d => X0 (ix2 r d)) (fun k d => C0 (ix2 k d)) _ _
      (fun r d => hX0 (ix2 r d)) (fun k d => hC0 (ix2 k d)) i,
    Cert.KernelIdeal.Acc.result_real m (fun r d => X0 (ix2 r d)) (fun k d => C0 (ix2 k d)) c
      (fun r d => hX0 (ix2 r d)) (fun k d => hC0 (ix2 k d)) i,
    Cert.MinDistance.lossKer_eq_lossRef]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
